-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x32 .f32) (main_arg1 : FVec F S1600000 .f32) (main_arg2 : IVec S1600000 32) (main_arg3 : IVec S1600000 32) (main_arg4 : FVec F S32x64 .f32) (main_arg5 : FVec F S64 .f32) (main_arg6 : FVec F S64x64 .f32) (main_arg7 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S20000x32 : Shape := ⟨2, ![20000, 32]⟩
abbrev S20000x64 : Shape := ⟨2, ![20000, 64]⟩
abbrev S1600000x64 : Shape := ⟨2, ![1600000, 64]⟩

abbrev nBuf : Space → Nat
  | .hbm => 88
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S32x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S1600000x32, .f32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S1600000x32, .f32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S1x64, .f32⟩
  | .hbm, ⟨47, _⟩ => ⟨S100000x64, .f32⟩
  | .hbm, ⟨48, _⟩ => ⟨S_, .f32⟩
  | .hbm, ⟨49, _⟩ => ⟨S1600000, .f32⟩
  | .hbm, ⟨50, _⟩ => ⟨S1600000, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S1600000, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .local _ .vmem, ⟨0, _⟩ => ⟨S20000x32, .f32⟩
  | .local _ .vmem, ⟨1, _⟩ => ⟨S20000x32, .f32⟩
  | .local _ .vmem, ⟨2, _⟩ => ⟨S32x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S64x64, .f32⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S64_S1x64 : S64.ShapeCasts S1x64
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S20000x32_S32x64_S20000x64_1_0_0_1_n_n_wf : DotDims.WF S20000x32 S32x64 S20000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x32.size a ≤ S100000x32.size a
  hwx0_0 : ∀ i : grid0.Coords, EltTy.bits .f32 = 32 ∨ (Rect.block (s := S100000x32) S20000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v29) S20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S32x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S1600000x32, .f32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S1600000x32, .f32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S1600000, .f32⟩
  | .hbm, ⟨55, _⟩ => ⟨S1600000, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S_, .f32⟩
  | .hbm, ⟨73, _⟩ => ⟨S1600000, .f32⟩
  | .hbm, ⟨74, _⟩ => ⟨S1600000, .f32⟩
  | .hbm, ⟨75, _⟩ => ⟨S1600000x1, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x64, .f32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  THE KERNEL PROGRAM'S RUN, WITH EVERY BUFFER NAMED.

  @main is four segments in a row: the host operations that propagate the input features twice along the edges, the
  first dense layer's launch over five row blocks, the host operations that propagate the hidden features twice, the
  second dense layer's launch. The buffer contents at each boundary are a fold from the launch memory (a stretch of
  host operations applies its operations; a launch leaves each of its arrays at what its write-backs fold to and every
  other buffer as it found it). Here the launch theorem for such a chain of segments is instantiated once with the
  post "every buffer the last thread state holds is at the last boundary's contents": the result array and the
  argument arrays are then read off that one statement.
-/
import proofs.«140563_j17514876633977_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every buffer that outlives a launch holds the last boundary's contents. -/
def AtEnd (c : Dev nD) (s : MemSt nD τ sig (Elt F)) : Prop :=
  ∀ b ∈ Pipeline.ucRefs τ sig, s.mem (((c : Thread nD τ)).1, b) = W4 m ρ c b

-- the launch theorem's implicit arguments are found by unifying its conclusion with this statement, which needs plain
-- definitions unfolded inside a metavariable's type
set_option backward.isDefEq.respectTransparency.types false in
/-- Every weakly fair execution of @main terminates, nothing faulting, and in every final state each buffer that
    outlives a launch holds the contents the fold through the four segments gives it. -/
theorem run_all : θ_run defs (onTc (τ := τ) (main (F := F))) ⟨m, fun _ => 0, ρ⟩ (fun r => ∀ c : Dev nD, AtEnd m ρ c r.2) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core takes any other ghost resource
      iintro Hu
      imodintro
      isplitl [Hu]
      · -- owning the launch element is owning its embedding: the two spellings unfold to one
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- per core: the launched buffers are the first boundary's contents; the register and the empty debt ride along
      refine Pipeline.initEach L lv fun c => ?_
      rw [Pipeline.unscopedBufs_held c (W0 m ρ c)]
      iintro ⟨⟨Hbufs, Hsems, Hdebt, Hcred, Hreg, Hg⟩, Hlev⟩
      imodintro
      isplitl [Hbufs]
      · iexact Hbufs
      isplitl [Hreg]
      · iexists _; iexact Hreg
      · iexists ∅; iexact Hdebt)
    (QY := AtEnd m ρ)
    (hfin := fun c s' => by
      -- the last thread state owns every such buffer at `W4`; against the final state that is an equation per buffer
      iintro ⟨⟨Hheld, Hreg⟩, Hstate⟩
      unfold StableHlo.held
      imodintro
      iapply (pointsTo_read_all (Pipeline.ucRefs τ sig) (fun b => (((c : Thread nD τ)).1, b)) (W4 m ρ c) s')
      isplitl [Hheld]
      · iexact Hheld
      · iexact Hstate)
    (hQ := fun s h => h)

/-- A TensorCore buffer that outlives a launch is among those the last thread state holds. -/
theorem held_of_unscoped (b : Ref sig .tc) (h : ¬ (Proc.devRef .tc b : DevRef τ sig).isScoped) :
    Proc.devRef .tc b ∈ Pipeline.ucRefs τ sig := mem_uc b h

end Cert.KernelIdeal.Named

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibDenseLayer.lean ====
/-
  ONE DENSE LAYER, READ AT AN ENTRY.

  For a matrix `h` of `N` rows and `K` columns, a weight matrix `W` of `K` rows and `C` columns and a bias row `b` of
  `C` entries, entry `(p, q)` of `h · W + b` is `(∑ k < K, h (p, k) · W (k, q)) + b q` on the extended reals. Row `p` of
  the result depends on row `p` of `h` only, so a block of rows of `h` gives the same block of rows of the result: the
  device computes the layer block by block (its matrix unit accumulating into zeros, the operands' change of float
  format the identity at the exact instance, the bias a `[1, C]` row spread over the block's rows), the host on the
  whole array (a dot product, the bias spread from `[C]` through `[1, C]`), and both are this one formula.
-/
import Idealize.ShloMosaic.PureOps.Ideal.Laws
import Idealize.ShloMosaic.Lib.ValueIdx
import Idealize.ShloMosaic.Lib.Pipeline.Value
import Idealize.ShloMosaic.Lib.ValueLayout
import proofs.«140563_j17514876633977_2_alg».proof.Proof.LibMatOps

noncomputable section

open scoped BigOperators

namespace Cert.Dense

open Idealize.ShloMosaic Idealize.ShloMosaic.ValueIdx Cert.MatOps

/-- Entry `(p, q)` of `h · W + b`. -/
def affine {N K C : Nat} (h : (⟨2, ![N, K]⟩ : Shape).Idx → EReal) (W : (⟨2, ![K, C]⟩ : Shape).Idx → EReal)
    (b : (⟨1, ![C]⟩ : Shape).Idx → EReal) (p : Fin N) (q : Fin C) : EReal :=
  (∑ k : Fin K, h (ix2 p k) * W (ix2 k q)) + b (ix1 q)

/-- The same entry with the bias held as one row `[1, C]`, as the device holds it. -/
def affineRow {N K C : Nat} (h : (⟨2, ![N, K]⟩ : Shape).Idx → EReal) (W : (⟨2, ![K, C]⟩ : Shape).Idx → EReal)
    (B : (⟨2, ![1, C]⟩ : Shape).Idx → EReal) (p : Fin N) (q : Fin C) : EReal :=
  (∑ k : Fin K, h (ix2 p k) * W (ix2 k q)) + B (ix2 (0 : Fin 1) q)

/-- A `[C]` vector recast as one row `[1, C]` is the same bias. -/
theorem affineRow_cast {N K C : Nat} (h : (⟨2, ![N, K]⟩ : Shape).Idx → EReal) (W : (⟨2, ![K, C]⟩ : Shape).Idx → EReal)
    (b : (⟨1, ![C]⟩ : Shape).Idx → EReal) (hc : (⟨1, ![C]⟩ : Shape).ShapeCasts ⟨2, ![1, C]⟩) (p : Fin N) (q : Fin C) :
    affineRow h W (shapeCast ⟨2, ![1, C]⟩ b hc) p q = affine h W b p q := by
  unfold affineRow affine
  rw [shapeCast_a_1a_apply]

section
variable {R K C : Nat} (wf : DotDims.WF ⟨2, ![R, K]⟩ ⟨2, ![K, C]⟩ ⟨2, ![R, C]⟩ [1] [0] [0] [1] [] [])

/-- THE DEVICE'S BLOCK: the matrix unit on the operands recast to a narrower float format, accumulating into zeros,
    plus the bias row spread over the block's rows, is at `(p, q)` the layer's entry of the block's rows. -/
theorem device_entry (x : FVec Ideal ⟨2, ![R, K]⟩ .f32) (w : FVec Ideal ⟨2, ![K, C]⟩ .f32)
    (B : FVec Ideal ⟨2, ![1, C]⟩ .f32)
    (hx : FTy.bits .bf16 < FTy.bits .f32) (hb : (⟨2, ![1, C]⟩ : Shape).Broadcasts ⟨2, ![R, C]⟩) (p : Fin R) (q : Fin C) :
    addf (FloatOps.matmul (plainDot R K C wf) none (truncf .bf16 x hx : FVec Ideal ⟨2, ![R, K]⟩ .bf16)
        (truncf .bf16 w hx : FVec Ideal ⟨2, ![K, C]⟩ .bf16) (constant ⟨2, ![R, C]⟩ .f32 0x00000000#32))
      (broadcastTo ⟨2, ![R, C]⟩ B hb) (ix2 p q) = affineRow x w B p q := by
  show FloatOps.matmul (plainDot R K C wf) none (truncf .bf16 x hx : FVec Ideal ⟨2, ![R, K]⟩ .bf16)
        (truncf .bf16 w hx : FVec Ideal ⟨2, ![K, C]⟩ .bf16) (constant ⟨2, ![R, C]⟩ .f32 0x00000000#32) (ix2 p q)
      + broadcastTo ⟨2, ![R, C]⟩ B hb (ix2 p q) = _
  rw [matmul_plain_apply wf, broadcastTo_1b_ab_apply]
  rfl

end

section
variable {N K C : Nat} (wf : DotDims.WF ⟨2, ![N, K]⟩ ⟨2, ![K, C]⟩ ⟨2, ![N, C]⟩ [1] [0] [0] [1] [] [])

/-- THE HOST'S WHOLE ARRAY: the dot product plus the bias spread from `[C]` to `[1, C]` to `[N, C]` is at `(p, q)` the
    layer's entry. -/
theorem host_entry (sched : HostSchedule) (x : FVec Ideal ⟨2, ![N, K]⟩ .f32) (w : FVec Ideal ⟨2, ![K, C]⟩ .f32)
    (b : (⟨1, ![C]⟩ : Shape).Idx → EReal)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2)) (p : Fin N) (q : Fin C) :
    addf (FloatOps.dotGeneral (plainDot N K C wf) none sched x w)
      (broadcastInDim ⟨2, ![N, C]⟩ ![0, 1] h2 (broadcastInDim ⟨2, ![1, C]⟩ ![1] h1 b)) (ix2 p q) = affine x w b p q := by
  show FloatOps.dotGeneral (plainDot N K C wf) none sched x w (ix2 p q)
      + broadcastInDim ⟨2, ![N, C]⟩ ![0, 1] h2 (broadcastInDim ⟨2, ![1, C]⟩ ![1] h1 b) (ix2 p q) = _
  rw [dotGeneral_plain_apply wf]
  have e2 : broadcastInDim ⟨2, ![N, C]⟩ ![0, 1] h2 (broadcastInDim ⟨2, ![1, C]⟩ ![1] h1 b) (ix2 p q)
      = broadcastInDim ⟨2, ![1, C]⟩ ![1] h1 b (ix2 (0 : Fin 1) q) :=
    broadcastInDim_apply _ h2 _ (ix2 p q) (ix2 (0 : Fin 1) q) fun a => by
      match a with
      | ⟨0, _⟩ => rfl
      | ⟨1, _⟩ =>
        show q.val = if C = 1 then 0 else q.val
        split
        · have := q.isLt; omega
        · rfl
  have e1 : broadcastInDim ⟨2, ![1, C]⟩ ![1] h1 b (ix2 (0 : Fin 1) q) = b (ix1 q) :=
    broadcastInDim_apply _ h1 b (ix2 (0 : Fin 1) q) (ix1 q) fun a => by
      match a with
      | ⟨0, _⟩ =>
        show q.val = if C = 1 then 0 else q.val
        split
        · have := q.isLt; omega
        · rfl
  rw [e2, e1]
  rfl

end

end Cert.Dense

end
-- ==== Proof.Propagate.lean ====
/-
  ONE PROPAGATION STEP ALONG THE EDGES.

  For edge weights `val`, edge endpoints `row`, `col` and node features `h`, the step sends `h` to the array whose row `r`
  is the sum, over the edges `e` with `row e = r`, of `(1/2 · val e) · h (col e)` (a negative endpoint counted from the
  end: `col e + 100000`). Both programs compute it with the same host operations — the scaled weights spread over the
  feature axis, the rows of `h` gathered at the endpoints, the products scatter-added into zeros — so the step is kept
  here as that composition and never opened: the two programs are compared around it, not through it.
-/
import proofs.«140563_j17514876633977_2_alg».proof.KernelIdeal
import proofs.«140563_j17514876633977_2_alg».proof.Proof.Gen.KernelIdeal
import Idealize.ShloMosaic.PureOps.Ideal

noncomputable section

namespace Cert.KernelIdeal.Spread

open Cert.KernelIdeal Cert.KernelIdeal.Gen Idealize.ShloMosaic

/-- The endpoints as the gather reads them: a negative one counted from the end, then as a column. -/
def endpoints (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- The halved edge weights as a column. -/
def halved (val : FVec Ideal S1600000 .f32) : FVec Ideal S1600000x1 .f32 :=
  broadcastInDim S1600000x1 ![0] bcast_S1600000_S1600000x1_0
    (mulf (broadcastInDim S1600000 ![] bcast_S_S1600000 (constant (F := Ideal) S_ .f32 0x3F000000#32)) val)

/-- One step on features of width 32. -/
def step32 (val : FVec Ideal S1600000 .f32) (row col : IVec S1600000 32) (h : FVec Ideal S100000x32 .f32) :
    FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 row)
    (mulf (broadcastInDim S1600000x32 ![0, 1] bcast_S1600000x1_S1600000x32_0_1 (halved val))
      (Host.gather gather_S100000x32_S1600000x1_S1600000x32_1_0_n_n_0_1_132 h (endpoints col)))

/-- One step on features of width 64. -/
def step64 (val : FVec Ideal S1600000 .f32) (row col : IVec S1600000 32) (h : FVec Ideal S100000x64 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (broadcastInDim S1600000x64 ![0, 1] bcast_S1600000x1_S1600000x64_0_1 (halved val))
      (Host.gather gather_S100000x64_S1600000x1_S1600000x64_1_0_n_n_0_1_164 h (endpoints col)))

end Cert.KernelIdeal.Spread

end
-- ==== Proof.Network.lean ====
/-
  THE NETWORK BOTH PROGRAMS COMPUTE.

  Two propagation steps on the input features, a dense layer floored at zero, two propagation steps on the hidden
  features, a dense layer:
      out = P (P (max (P (P x) · W1 + b1, 0))) · W2 + b2,
  every operation the exact one on the extended reals. The dense layers are written entry by entry (`Cert.Dense`), the
  bias held as the one-row array `[1, 64]` the launches stage; the propagation step `P` is the host composition of
  `Cert.KernelIdeal.Spread`, unopened.
-/
import proofs.«140563_j17514876633977_2_alg».proof.Proof.Propagate
import proofs.«140563_j17514876633977_2_alg».proof.Proof.LibDenseLayer

noncomputable section

namespace Cert.KernelIdeal.Network

open Cert.KernelIdeal Cert.KernelIdeal.Gen Cert.KernelIdeal.Spread Idealize.ShloMosaic

/-- THE FIRST LAYER on whole arrays: entry `(r, q)` is `max (∑ k, h (r, k) · W (k, q) + B (0, q), 0)`. -/
def reluRows (h : S100000x32.Idx → EReal) (W : S32x64.Idx → EReal) (B : S1x64.Idx → EReal) : S100000x64.Idx → EReal :=
  fun i => max (Cert.Dense.affineRow h W B (i 0) (i 1)) (Ideal.ofBits .f32 0x00000000#32)

/-- THE SECOND LAYER on whole arrays: entry `(r, q)` is `∑ k, h (r, k) · W (k, q) + B (0, q)`. -/
def plainRows (h : S100000x64.Idx → EReal) (W : S64x64.Idx → EReal) (B : S1x64.Idx → EReal) : S100000x64.Idx → EReal :=
  fun i => Cert.Dense.affineRow h W B (i 0) (i 1)

/-- The network's output array as a function of the eight argument arrays. -/
def net (x : FVec Ideal S100000x32 .f32) (val : FVec Ideal S1600000 .f32) (row col : IVec S1600000 32)
    (W1 : FVec Ideal S32x64 .f32) (b1 : FVec Ideal S64 .f32) (W2 : FVec Ideal S64x64 .f32) (b2 : FVec Ideal S64 .f32) :
    S100000x64.Idx → EReal :=
  plainRows
    (step64 val row col (step64 val row col
      (reluRows (step32 val row col (step32 val row col x)) W1 (shapeCast S1x64 b1 shapeCasts_S64_S1x64))))
    W2 (shapeCast S1x64 b2 shapeCasts_S64_S1x64)

end Cert.KernelIdeal.Network

end
-- ==== Proof.LayerBlocks.lean ====
/-
  THE TWO DENSE LAYERS' ARRAYS AFTER THEIR LAUNCHES.

  Each launch walks five grid points; point `t` stages rows `t · 20000 … t · 20000 + 19999` of its row operand, the whole
  weight matrix and the whole `[1, 64]` bias row, and writes back the same rows of the output. The body's entry `(p, q)`
  is `∑ k, x (p, k) · w (k, q) + B (0, q)` of the staged blocks (floored at zero in the first launch): row `p` of the block
  is row `t · 20000 + p` of the array, so what point `t` writes back is block `t` of ONE whole-array function of the
  arrays the launch finds, and the five blocks tile the output (row `r` lies in block `r / 20000`). Hence the output array
  ends at that function. Everything is stated at any contents `V` the launch may be entered from.
-/
import proofs.«140563_j17514876633977_2_alg».proof.Proof.Gen.KernelIdeal.Frame
import proofs.«140563_j17514876633977_2_alg».proof.Proof.LibDenseLayer
import proofs.«140563_j17514876633977_2_alg».proof.Proof.Network

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Network
open Idealize.ShloMosaic.Pipeline (Dat)

variable (V : (c : Dev nD) → (b : Ref sig .tc) → Buf (Elt Ideal) ((c : Thread nD τ).loc b))

/-- The all-zero offset of a rank-2 load or store. -/
theorem hz : (![0, 0] : Fin 2 → Nat) = fun _ => 0 := funext fun a => by fin_cases a <;> rfl

/-! ## The first launch -/

/-- The first layer's body at an entry of its block: the block's rows times the weights plus the bias row, floored at the
    zero word (the casts of an array to its own shape are the identity). -/
theorem pay0_entry (x0 : Vec Ideal S20000x32 .f32) (x1 : Vec Ideal S32x64 .f32) (x2 : Vec Ideal S1x64 .f32) (p : Fin 20000) (q : Fin 64) :
    k0_pay1 x0 x1 x2 (ix2 p q) = max (Cert.Dense.affineRow x0 x1 x2 p q) (Ideal.ofBits .f32 0x00000000#32) := by
  unfold k0_pay1
  rw [shapeCast_self, shapeCast_self]
  refine congrArg (fun z => max z (Ideal.ofBits .f32 0x00000000#32)) ?_
  exact Cert.Dense.device_entry (R := 20000) (K := 32) (C := 64) dot_S20000x32_S32x64_S20000x64_1_0_0_1_n_n.wf x0 x1 x2 bitsLt_bf16_f32 broadcasts_S1x64_S20000x64 p q

/-- The printed index maps, decided over the five grid points: the row operand's block moves with the output's, the
    weights and the bias row stay at their one block, and the output's block row is at most 4. -/
theorem idx_facts0 : ∀ t : Fin cfg0.N,
    win0_0.index t (0 : Fin 2) = win0_3.index t (0 : Fin 2) ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (1 : Fin 2) = 0 ∧ win0_3.index t (0 : Fin 2) ≤ 4 :=
  (by decide +kernel : ∀ t : Fin grid0.N, _)

/-- Block `t` of the row operand, read at `(p, k)`, is the array's row `t · 20000 + p`. -/
theorem read0_rows (c : Dev nD) (t : Fin cfg0.N) (p : Fin 20000) (k : Fin 32) (r : Fin 100000)
    (hr : r.val = win0_3.index t (0 : Fin 2) * 20000 + p.val) :
    iblk0 V c 0 t (ix2 p k) = V c main_v29 (ix2 r k) := by
  obtain ⟨e0, e1, e2, e3, e4, e5, e6, e7⟩ := idx_facts0 t
  show V c main_v29 (((cfg0.win 0).blk t).view.emb (ix2 p k)) = _
  refine congrArg (V c main_v29) (funext fun a => Fin.ext ?_)
  match a with
  | ⟨0, _⟩ => show win0_0.index t (0 : Fin 2) * 20000 + 1 * p.val = r.val; omega
  | ⟨1, _⟩ => show win0_0.index t (1 : Fin 2) * 32 + 1 * k.val = k.val; omega

/-- The weight window's one block is the whole weight array. -/
theorem read0_weights (c : Dev nD) (t : Fin cfg0.N) (k : Fin 32) (q : Fin 64) :
    iblk0 V c 1 t (ix2 k q) = V c main_arg4 (ix2 k q) := by
  obtain ⟨e0, e1, e2, e3, e4, e5, e6, e7⟩ := idx_facts0 t
  show V c main_arg4 (((cfg0.win 1).blk t).view.emb (ix2 k q)) = _
  refine congrArg (V c main_arg4) (funext fun a => Fin.ext ?_)
  match a with
  | ⟨0, _⟩ => show win0_1.index t (0 : Fin 2) * 32 + 1 * k.val = k.val; omega
  | ⟨1, _⟩ => show win0_1.index t (1 : Fin 2) * 64 + 1 * q.val = q.val; omega

/-- The bias window's one block is the whole bias row. -/
theorem read0_bias (c : Dev nD) (t : Fin cfg0.N) (q : Fin 64) :
    iblk0 V c 2 t (ix2 (0 : Fin 1) q) = V c main_v30 (ix2 (0 : Fin 1) q) := by
  obtain ⟨e0, e1, e2, e3, e4, e5, e6, e7⟩ := idx_facts0 t
  show V c main_v30 (((cfg0.win 2).blk t).view.emb (ix2 (0 : Fin 1) q)) = _
  refine congrArg (V c main_v30) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- WHAT POINT `t` WRITES BACK is block `t` of the first layer of the arrays as the region finds them: the body's entry
    `(p, q)` is the layer's entry of row `t · 20000 + p`, which reads that row of the row operand only. -/
theorem flushed0_eq (c : Dev nD) (t : Fin cfg0.N) :
    (dat0 V c).flushed 3 t = ((cfg0.win 3).blk t).view.read (Elt Ideal) (reluRows (V c main_v29) (V c main_arg4) (V c main_v30)) := by
  show (cfg0.win 3).cut (grid0.coords t) ((dat0 V c).after 3 t) = _
  rw [after0_3]
  unfold out0_3
  rw [View.canon_unit_zero hz]
  simp only [View.ld_unit_zero (S := S20000x32) hz, View.ld_unit_zero (S := S32x64) hz, View.ld_unit_zero (S := S1x64) hz]
  obtain ⟨e0, e1, e2, e3, e4, e5, e6, e7⟩ := idx_facts0 t
  funext j
  have hj0 : (j 0).val < 20000 := (j 0).isLt
  have hj1 : (j 1).val < 64 := (j 1).isLt
  have hr : win0_3.index t (0 : Fin 2) * 20000 + (j 0).val < 100000 := by omega
  refine Eq.trans (?_ : _ = k0_pay1 (iblk0 V c 0 t) (iblk0 V c 1 t) (iblk0 V c 2 t) (ix2 ⟨(j 0).val, hj0⟩ ⟨(j 1).val, hj1⟩))
    ((pay0_entry (iblk0 V c 0 t) (iblk0 V c 1 t) (iblk0 V c 2 t) ⟨(j 0).val, hj0⟩ ⟨(j 1).val, hj1⟩).trans ?_)
  · refine congrArg (k0_pay1 (iblk0 V c 0 t) (iblk0 V c 1 t) (iblk0 V c 2 t)) (funext fun a => Fin.ext ?_)
    match a with
    | ⟨0, _⟩ => rfl
    | ⟨1, _⟩ => rfl
  · show _ = max (Cert.Dense.affineRow (V c main_v29) (V c main_arg4) (V c main_v30)
        (⟨win0_3.index t (0 : Fin 2) * 20000 + 1 * (j 0).val, by omega⟩ : Fin 100000) (⟨win0_3.index t (1 : Fin 2) * 64 + 1 * (j 1).val, by omega⟩ : Fin 64)) _
    refine congrArg (fun z => max z (Ideal.ofBits .f32 0x00000000#32)) ?_
    unfold Cert.Dense.affineRow
    have hq : (⟨win0_3.index t (1 : Fin 2) * 64 + 1 * (j 1).val, by omega⟩ : Fin 64) = ⟨(j 1).val, hj1⟩ := Fin.ext (show win0_3.index t (1 : Fin 2) * 64 + 1 * (j 1).val = (j 1).val by omega)
    rw [hq, read0_bias V c t]
    refine congrArg (· + _) (Finset.sum_congr rfl fun k _ => ?_)
    rw [read0_rows V c t ⟨(j 0).val, hj0⟩ k ⟨win0_3.index t (0 : Fin 2) * 20000 + 1 * (j 0).val, by omega⟩ (show win0_3.index t (0 : Fin 2) * 20000 + 1 * (j 0).val = win0_3.index t (0 : Fin 2) * 20000 + (j 0).val by omega),
      read0_weights V c t]

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v31).slice (win0_3.rect t)).set ↔ _
  rw [View.set_slice_whole, Rect.mem_set_unit]
  exact Iff.rfl

/-- Every block row of the output is some point's. -/
theorem idx_onto0 : ∀ q0 : Fin 5, ∃ t : Fin cfg0.N, win0_3.index t = ![q0.val, 0] :=
  (by decide +kernel : ∀ q0 : Fin 5, ∃ t : Fin grid0.N, win0_3.index t = ![q0.val, 0])

/-- Row `r` of the output lies in the block of the point `r / 20000`: the five blocks tile the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto0 ⟨(i 0).val / 20000, by omega⟩
  have q0 : win0_3.index t (0 : Fin 2) = (i 0).val / 20000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 20000 ≤ (i 0).val ∧ (i 0).val < win0_3.index t (0 : Fin 2) * 20000 + 20000; omega
  | ⟨1, _⟩ => show win0_3.index t (1 : Fin 2) * 64 ≤ (i 1).val ∧ (i 1).val < win0_3.index t (1 : Fin 2) * 64 + 64; omega

/-- THE FIRST LAYER'S ARRAY after its region. -/
theorem final0 (c : Dev nD) : (dat0 V c).arrAt 3 cfg0.N = reluRows (V c main_v29) (V c main_arg4) (V c main_v30) :=
  (dat0 V c).arrAt_eq_of_cover 3 _ (fun t _ => flushed0_eq V c t) cover0

/-! ## The second launch -/

/-- The second layer's body at an entry of its block: the block's rows times the weights plus the bias row. -/
theorem pay1_entry (x0 : Vec Ideal S20000x64 .f32) (x1 : Vec Ideal S64x64 .f32) (x2 : Vec Ideal S1x64 .f32) (p : Fin 20000) (q : Fin 64) :
    k1_pay1 x0 x1 x2 (ix2 p q) = Cert.Dense.affineRow x0 x1 x2 p q := by
  unfold k1_pay1
  rw [shapeCast_self, shapeCast_self]
  exact Cert.Dense.device_entry (R := 20000) (K := 64) (C := 64) dot_S20000x64_S64x64_S20000x64_1_0_0_1_n_n.wf x0 x1 x2 bitsLt_bf16_f32 broadcasts_S1x64_S20000x64 p q

/-- The printed index maps of the second launch, decided over its five grid points. -/
theorem idx_facts1 : ∀ t : Fin cfg1.N,
    win1_0.index t (0 : Fin 2) = win1_3.index t (0 : Fin 2) ∧ win1_0.index t (1 : Fin 2) = 0
  ∧ win1_1.index t (0 : Fin 2) = 0 ∧ win1_1.index t (1 : Fin 2) = 0
  ∧ win1_2.index t (0 : Fin 2) = 0 ∧ win1_2.index t (1 : Fin 2) = 0
  ∧ win1_3.index t (1 : Fin 2) = 0 ∧ win1_3.index t (0 : Fin 2) ≤ 4 :=
  (by decide +kernel : ∀ t : Fin grid1.N, _)

/-- Block `t` of the row operand, read at `(p, k)`, is the array's row `t · 20000 + p`. -/
theorem read1_rows (c : Dev nD) (t : Fin cfg1.N) (p : Fin 20000) (k : Fin 64) (r : Fin 100000)
    (hr : r.val = win1_3.index t (0 : Fin 2) * 20000 + p.val) :
    iblk1 V c 0 t (ix2 p k) = V c main_v61 (ix2 r k) := by
  obtain ⟨e0, e1, e2, e3, e4, e5, e6, e7⟩ := idx_facts1 t
  show V c main_v61 (((cfg1.win 0).blk t).view.emb (ix2 p k)) = _
  refine congrArg (V c main_v61) (funext fun a => Fin.ext ?_)
  match a with
  | ⟨0, _⟩ => show win1_0.index t (0 : Fin 2) * 20000 + 1 * p.val = r.val; omega
  | ⟨1, _⟩ => show win1_0.index t (1 : Fin 2) * 64 + 1 * k.val = k.val; omega

/-- The weight window's one block is the whole weight array. -/
theorem read1_weights (c : Dev nD) (t : Fin cfg1.N) (k : Fin 64) (q : Fin 64) :
    iblk1 V c 1 t (ix2 k q) = V c main_arg6 (ix2 k q) := by
  obtain ⟨e0, e1, e2, e3, e4, e5, e6, e7⟩ := idx_facts1 t
  show V c main_arg6 (((cfg1.win 1).blk t).view.emb (ix2 k q)) = _
  refine congrArg (V c main_arg6) (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The bias window's one block is the whole bias row. -/
theorem read1_bias (c : Dev nD) (t : Fin cfg1.N) (q : Fin 64) :
    iblk1 V c 2 t (ix2 (0 : Fin 1) q) = V c main_v62 (ix2 (0 : Fin 1) q) := by
  obtain ⟨e0, e1, e2, e3, e4, e5, e6, e7⟩ := idx_facts1 t
  show V c main_v62 (((cfg1.win 2).blk t).view.emb (ix2 (0 : Fin 1) q)) = _
  refine congrArg (V c main_v62) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- WHAT POINT `t` WRITES BACK is block `t` of the second layer of the arrays as the region finds them. -/
theorem flushed1_eq (c : Dev nD) (t : Fin cfg1.N) :
    (dat1 V c).flushed 3 t = ((cfg1.win 3).blk t).view.read (Elt Ideal) (plainRows (V c main_v61) (V c main_arg6) (V c main_v62)) := by
  show (cfg1.win 3).cut (grid1.coords t) ((dat1 V c).after 3 t) = _
  rw [after1_3]
  unfold out1_3
  rw [View.canon_unit_zero hz]
  simp only [View.ld_unit_zero (S := S20000x64) hz, View.ld_unit_zero (S := S64x64) hz, View.ld_unit_zero (S := S1x64) hz]
  obtain ⟨e0, e1, e2, e3, e4, e5, e6, e7⟩ := idx_facts1 t
  funext j
  have hj0 : (j 0).val < 20000 := (j 0).isLt
  have hj1 : (j 1).val < 64 := (j 1).isLt
  have hr : win1_3.index t (0 : Fin 2) * 20000 + (j 0).val < 100000 := by omega
  refine Eq.trans (?_ : _ = k1_pay1 (iblk1 V c 0 t) (iblk1 V c 1 t) (iblk1 V c 2 t) (ix2 ⟨(j 0).val, hj0⟩ ⟨(j 1).val, hj1⟩))
    ((pay1_entry (iblk1 V c 0 t) (iblk1 V c 1 t) (iblk1 V c 2 t) ⟨(j 0).val, hj0⟩ ⟨(j 1).val, hj1⟩).trans ?_)
  · refine congrArg (k1_pay1 (iblk1 V c 0 t) (iblk1 V c 1 t) (iblk1 V c 2 t)) (funext fun a => Fin.ext ?_)
    match a with
    | ⟨0, _⟩ => rfl
    | ⟨1, _⟩ => rfl
  · show _ = Cert.Dense.affineRow (V c main_v61) (V c main_arg6) (V c main_v62)
        (⟨win1_3.index t (0 : Fin 2) * 20000 + 1 * (j 0).val, by omega⟩ : Fin 100000) (⟨win1_3.index t (1 : Fin 2) * 64 + 1 * (j 1).val, by omega⟩ : Fin 64)
    unfold Cert.Dense.affineRow
    have hq : (⟨win1_3.index t (1 : Fin 2) * 64 + 1 * (j 1).val, by omega⟩ : Fin 64) = ⟨(j 1).val, hj1⟩ := Fin.ext (show win1_3.index t (1 : Fin 2) * 64 + 1 * (j 1).val = (j 1).val by omega)
    rw [hq, read1_bias V c t]
    refine congrArg (· + _) (Finset.sum_congr rfl fun k _ => ?_)
    rw [read1_rows V c t ⟨(j 0).val, hj0⟩ k ⟨win1_3.index t (0 : Fin 2) * 20000 + 1 * (j 0).val, by omega⟩ (show win1_3.index t (0 : Fin 2) * 20000 + 1 * (j 0).val = win1_3.index t (0 : Fin 2) * 20000 + (j 0).val by omega),
      read1_weights V c t]

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v63).slice (win1_3.rect t)).set ↔ _
  rw [View.set_slice_whole, Rect.mem_set_unit]
  exact Iff.rfl

/-- Every block row of the output is some point's. -/
theorem idx_onto1 : ∀ q0 : Fin 5, ∃ t : Fin cfg1.N, win1_3.index t = ![q0.val, 0] :=
  (by decide +kernel : ∀ q0 : Fin 5, ∃ t : Fin grid1.N, win1_3.index t = ![q0.val, 0])

/-- Row `r` of the output lies in the block of the point `r / 20000`: the five blocks tile the array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 20000, by omega⟩
  have q0 : win1_3.index t (0 : Fin 2) = (i 0).val / 20000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 64 ≤ (i 1).val ∧ (i 1).val < win1_3.index t (1 : Fin 2) * 64 + 64; omega

/-- THE SECOND LAYER'S ARRAY after its region. -/
theorem final1 (c : Dev nD) : (dat1 V c).arrAt 3 cfg1.N = plainRows (V c main_v61) (V c main_arg6) (V c main_v62) :=
  (dat1 V c).arrAt_eq_of_cover 3 _ (fun t _ => flushed1_eq V c t) cover1

end Cert.KernelIdeal.Blocks

end
-- ==== Proof.KernelValue.lean ====
/-
  THE KERNEL PROGRAM'S RESULT IS THE NETWORK.

  The buffer contents at the four segment boundaries are a fold from the launch memory; here each launch's input arrays
  are read back through that fold. Before the first launch the host operations leave the twice-propagated input features,
  the first weights untouched and the first bias recast as one row; the launch leaves the first layer of those (the
  five row blocks tile the output); the second stretch of host operations propagates THAT array twice and recasts the
  second bias, touching no argument; the second launch leaves the second layer. Composed, the result array is the
  network of the arguments as launched, and the arguments end unchanged.
-/
import proofs.«140563_j17514876633977_2_alg».proof.Proof.KernelRun
import proofs.«140563_j17514876633977_2_alg».proof.Proof.LayerBlocks
import proofs.«140563_j17514876633977_2_alg».proof.Proof.Propagate
import Idealize.ShloMosaic.Lib.StableHlo.Run

set_option maxRecDepth 16384

noncomputable section

namespace Cert.KernelIdeal.Net

open Cert.KernelIdeal Cert.KernelIdeal.Gen Cert.KernelIdeal.Blocks Cert.KernelIdeal.Spread
open Idealize.ShloMosaic Idealize.ShloMosaic.TcCoe Idealize.SL.Sem Idealize.ShloMosaic.StableHlo

variable (m : (ℓ : Loc nD τ sig) → Buf (Elt Ideal) ℓ) (ρ : Dev nD → PrngReg)

open Cert.KernelIdeal.Network

/-! ## The first launch's arrays -/

/-- At the first launch the row operand holds the input features propagated twice. -/
theorem entry0_rows (c : Dev nD) :
    (V1 m ρ c main_v29 : S100000x32.Idx → EReal)
      = step32 (m ((c : Thread nD τ).loc main_arg1)) (m ((c : Thread nD τ).loc main_arg2)) (m ((c : Thread nD τ).loc main_arg3)) (step32 (m ((c : Thread nD τ).loc main_arg1)) (m ((c : Thread nD τ).loc main_arg2)) (m ((c : Thread nD τ).loc main_arg3)) (m ((c : Thread nD τ).loc main_arg0))) := by
  show StableHlo.after hostOps0 (W0 m ρ c) (Proc.devRef .tc main_v29) = _
  after_results_simp
  rfl

/-- The first weight matrix is as launched: no host operation writes an argument. -/
theorem entry0_weights (c : Dev nD) : (V1 m ρ c main_arg4 : S32x64.Idx → EReal) = (m ((c : Thread nD τ).loc main_arg4)) := by
  show StableHlo.after hostOps0 (W0 m ρ c) (Proc.devRef .tc main_arg4) = _
  after_results_simp <;> rfl

/-- The first bias reaches its launch recast as one row. -/
theorem entry0_bias (c : Dev nD) :
    (V1 m ρ c main_v30 : S1x64.Idx → EReal) = shapeCast S1x64 (m ((c : Thread nD τ).loc main_arg5)) shapeCasts_S64_S1x64 := by
  show StableHlo.after hostOps0 (W0 m ρ c) (Proc.devRef .tc main_v30) = _
  after_results_simp <;> rfl

/-- An argument is as launched after the first stretch of host operations and the first launch. -/
theorem mid_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp <;> rfl)
theorem mid_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results_simp <;> rfl)
theorem mid_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)
theorem mid_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)
theorem mid_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-- THE HIDDEN FEATURES: after the first launch its output array is the first layer of the propagated input. -/
theorem mid_hidden (c : Dev nD) :
    (W2 m ρ c (Proc.devRef .tc main_v31) : S100000x64.Idx → EReal)
      = reluRows (step32 (m ((c : Thread nD τ).loc main_arg1)) (m ((c : Thread nD τ).loc main_arg2)) (m ((c : Thread nD τ).loc main_arg3)) (step32 (m ((c : Thread nD τ).loc main_arg1)) (m ((c : Thread nD τ).loc main_arg2)) (m ((c : Thread nD τ).loc main_arg3)) (m ((c : Thread nD τ).loc main_arg0)))) (m ((c : Thread nD τ).loc main_arg4))
          (shapeCast S1x64 (m ((c : Thread nD τ).loc main_arg5)) shapeCasts_S64_S1x64) := by
  refine (W2_arr m ρ c 3).trans ((final0 (V1 m ρ) c).trans ?_)
  rw [entry0_rows, entry0_weights, entry0_bias]

/-! ## The second launch's arrays -/

/-- At the second launch the row operand holds the hidden features propagated twice: the second stretch of host
    operations applied to what the first launch left. -/
theorem entry1_rows (c : Dev nD) :
    (V3 m ρ c main_v61 : S100000x64.Idx → EReal)
      = step64 (m ((c : Thread nD τ).loc main_arg1)) (m ((c : Thread nD τ).loc main_arg2)) (m ((c : Thread nD τ).loc main_arg3)) (step64 (m ((c : Thread nD τ).loc main_arg1)) (m ((c : Thread nD τ).loc main_arg2)) (m ((c : Thread nD τ).loc main_arg3))
          (reluRows (step32 (m ((c : Thread nD τ).loc main_arg1)) (m ((c : Thread nD τ).loc main_arg2)) (m ((c : Thread nD τ).loc main_arg3)) (step32 (m ((c : Thread nD τ).loc main_arg1)) (m ((c : Thread nD τ).loc main_arg2)) (m ((c : Thread nD τ).loc main_arg3)) (m ((c : Thread nD τ).loc main_arg0)))) (m ((c : Thread nD τ).loc main_arg4))
            (shapeCast S1x64 (m ((c : Thread nD τ).loc main_arg5)) shapeCasts_S64_S1x64))) := by
  have e : (V3 m ρ c main_v61 : S100000x64.Idx → EReal)
      = step64 (W2 m ρ c (Proc.devRef .tc main_arg1)) (W2 m ρ c (Proc.devRef .tc main_arg2)) (W2 m ρ c (Proc.devRef .tc main_arg3))
          (step64 (W2 m ρ c (Proc.devRef .tc main_arg1)) (W2 m ρ c (Proc.devRef .tc main_arg2)) (W2 m ρ c (Proc.devRef .tc main_arg3))
            (W2 m ρ c (Proc.devRef .tc main_v31))) := by
    show StableHlo.after hostOps1 (W2 m ρ c) (Proc.devRef .tc main_v61) = _
    after_results_simp
    rfl
  rw [e, mid_arg1, mid_arg2, mid_arg3, mid_hidden]

/-- The second weight matrix is as launched. -/
theorem entry1_weights (c : Dev nD) : (V3 m ρ c main_arg6 : S64x64.Idx → EReal) = (m ((c : Thread nD τ).loc main_arg6)) := by
  have e : (V3 m ρ c main_arg6 : S64x64.Idx → EReal) = W2 m ρ c (Proc.devRef .tc main_arg6) := by
    show StableHlo.after hostOps1 (W2 m ρ c) (Proc.devRef .tc main_arg6) = _
    after_results_simp <;> rfl
  rw [e, mid_arg6]

/-- The second bias reaches its launch recast as one row. -/
theorem entry1_bias (c : Dev nD) :
    (V3 m ρ c main_v62 : S1x64.Idx → EReal) = shapeCast S1x64 (m ((c : Thread nD τ).loc main_arg7)) shapeCasts_S64_S1x64 := by
  have e : (V3 m ρ c main_v62 : S1x64.Idx → EReal)
      = shapeCast S1x64 (W2 m ρ c (Proc.devRef .tc main_arg7)) shapeCasts_S64_S1x64 := by
    show StableHlo.after hostOps1 (W2 m ρ c) (Proc.devRef .tc main_v62) = _
    after_results_simp <;> rfl
  rw [e, mid_arg7]

/-! ## The result -/

/-- THE RESULT ARRAY at the last boundary is the network of the argument arrays as launched. -/
theorem result (c : Dev nD) :
    (W4 m ρ c (Proc.devRef .tc main_v63) : S100000x64.Idx → EReal)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 3).trans ((final1 (V3 m ρ) c).trans ?_)
  rw [entry1_rows, entry1_weights, entry1_bias]
  rfl

/-- THE KERNEL PROGRAM'S RUN, READ: every weakly fair execution terminates, nothing faulting, with the result array at
    the network of the arguments and the arguments unchanged. -/
theorem run : θ_run defs (onTc (τ := τ) (main (F := Ideal))) ⟨m, fun _ => 0, ρ⟩ (fun r => ∀ c : Dev nD,
      r.2.mem ((c.tc : Thread nD τ).loc main_v63)
        = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨((h c) _ (mem_uc main_v63 (by decide))).trans (result m ρ c),
       ((h c) _ (mem_uc main_arg0 (by decide))).trans (W4_main_arg0 m ρ c),
       ((h c) _ (mem_uc main_arg1 (by decide))).trans (W4_main_arg1 m ρ c),
       ((h c) _ (mem_uc main_arg2 (by decide))).trans (W4_main_arg2 m ρ c),
       ((h c) _ (mem_uc main_arg3 (by decide))).trans (W4_main_arg3 m ρ c),
       ((h c) _ (mem_uc main_arg4 (by decide))).trans (W4_main_arg4 m ρ c),
       ((h c) _ (mem_uc main_arg5 (by decide))).trans (W4_main_arg5 m ρ c),
       ((h c) _ (mem_uc main_arg6 (by decide))).trans (W4_main_arg6 m ρ c),
       ((h c) _ (mem_uc main_arg7 (by decide))).trans (W4_main_arg7 m ρ c)⟩)
    (Cert.KernelIdeal.Named.run_all m ρ)

end Cert.KernelIdeal.Net

end
-- ==== Proof.RefValue.lean ====
/-
  THE REFERENCE'S RESULT IS THE NETWORK.

  The reference's @main, stage by stage (the generated read-back of its run names each operation's value): the first
  propagation pair is the step applied twice to the input features; `h · W1 + b1` floored at zero is the first layer
  on whole arrays — the host's dot product at `(r, q)` is `∑ k, h (r, k) · W1 (k, q)`, and the bias spread from `[64]`
  through `[1, 64]` to every row reads `b1 q`, the same number the one-row recast of `b1` holds at `(0, q)` —; the second
  pair is the step applied twice to that; the last stage is the second layer.
-/
import proofs.«140563_j17514876633977_2_alg».proof.Proof.Gen.ReferenceIdeal.Read
import proofs.«140563_j17514876633977_2_alg».proof.Proof.Network

noncomputable section

namespace Cert.ReferenceIdeal.RefValue

open Cert.ReferenceIdeal Cert.ReferenceIdeal.Gen Cert.ReferenceIdeal.Read
open Idealize.ShloMosaic Idealize.ShloMosaic.ValueIdx
open Cert.KernelIdeal.Spread Cert.KernelIdeal.Network

variable (x0 : (⟨S100000x32, .f32⟩ : BufTy).Contents (Elt Ideal)) (x1 : (⟨S1600000, .f32⟩ : BufTy).Contents (Elt Ideal))
  (x2 x3 : (⟨S1600000, .i32⟩ : BufTy).Contents (Elt Ideal)) (x4 : (⟨S32x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The first four edge stages are the propagation step, twice (the same host operations, composed). -/
theorem stage_v29 : val_main_v29 (F := Ideal) x0 x1 x2 x3 = step32 x1 x2 x3 (step32 x1 x2 x3 x0) := rfl

/-- `relu (h · W1 + b1)` is the first layer on whole arrays. -/
theorem stage_v34 : val_main_v34 (F := Ideal) x0 x1 x2 x3 x4 x5
    = reluRows (val_main_v29 (F := Ideal) x0 x1 x2 x3) x4
        (shapeCast Cert.KernelIdeal.S1x64 x5 Cert.KernelIdeal.Gen.shapeCasts_S64_S1x64) := by
  funext i
  obtain ⟨p, q, rfl⟩ : ∃ (p : Fin 100000) (q : Fin 64), i = ix2 p q := ⟨i 0, i 1, eq_ix2 i⟩
  have ha : val_main_v33 (F := Ideal) x0 x1 x2 x3 x4 x5 (ix2 p q)
      = Cert.Dense.affineRow (val_main_v29 (F := Ideal) x0 x1 x2 x3) x4
          (shapeCast Cert.KernelIdeal.S1x64 x5 Cert.KernelIdeal.Gen.shapeCasts_S64_S1x64) p q :=
    (Cert.Dense.host_entry (N := 100000) (K := 32) (C := 64) dot_S100000x32_S32x64_S100000x64_1_0_0_1_n_n.wf .single
      (val_main_v29 (F := Ideal) x0 x1 x2 x3) x4 x5 bcast_S64_S1x64_1 bcast_S1x64_S100000x64_0_1 p q).trans
      (Cert.Dense.affineRow_cast _ _ _ _ p q).symm
  rw [val_main_v34_apply, val_main_call0_v0_apply, val_main_call0_cst_apply, ha, Ideal.maximumf_def, Ideal.ofBits_def]
  rfl

/-- The second four edge stages are the propagation step, twice, on the first layer's output. -/
theorem stage_v64 : val_main_v64 (F := Ideal) x0 x1 x2 x3 x4 x5
    = step64 x1 x2 x3 (step64 x1 x2 x3 (val_main_v34 (F := Ideal) x0 x1 x2 x3 x4 x5)) := rfl

/-- `h · W2 + b2` is the second layer on whole arrays. -/
theorem stage_v68 : val_main_v68 (F := Ideal) x0 x1 x2 x3 x4 x5 x6 x7
    = plainRows (val_main_v64 (F := Ideal) x0 x1 x2 x3 x4 x5) x6
        (shapeCast Cert.KernelIdeal.S1x64 x7 Cert.KernelIdeal.Gen.shapeCasts_S64_S1x64) := by
  funext i
  obtain ⟨p, q, rfl⟩ : ∃ (p : Fin 100000) (q : Fin 64), i = ix2 p q := ⟨i 0, i 1, eq_ix2 i⟩
  refine (Cert.Dense.host_entry (N := 100000) (K := 64) (C := 64) dot_S100000x64_S64x64_S100000x64_1_0_0_1_n_n.wf .single
    (val_main_v64 (F := Ideal) x0 x1 x2 x3 x4 x5) x6 x7 bcast_S64_S1x64_1 bcast_S1x64_S100000x64_0_1 p q).trans ?_
  exact (Cert.Dense.affineRow_cast _ _ _ _ p q).symm

/-- THE REFERENCE'S RESULT, as a function of its arguments, is the network. -/
theorem result_is_net : val_main_v68 (F := Ideal) x0 x1 x2 x3 x4 x5 x6 x7 = net x0 x1 x2 x3 x4 x5 x6 x7 := by
  rw [stage_v68, stage_v64, stage_v34, stage_v29]
  rfl

end Cert.ReferenceIdeal.RefValue

end
-- ==== Proof.lean ====
/-
  A TWO-LAYER GRAPH NETWORK: THE TILED KERNEL AGAINST ITS WHOLE-ARRAY REFERENCE, ON THE EXTENDED REALS.

  Both programs compute
      out = P (P (max (P (P x) · W1 + b1, 0))) · W2 + b2
  where the propagation step `P` sends node features `h` to the array whose row `r` sums `(1/2 · val e) · h (col e)` over the
  edges `e` with `row e = r`. `P` is the same host composition in both programs and is never opened. The programs differ
  in the two dense layers only: the kernel computes each on five blocks of 20000 rows with the matrix unit (the operands
  recast to a narrower float format, the identity on exact values; the bias a `[1, 64]` row spread over the block), the
  reference on the whole array with a dot product and a spread bias. Entry `(r, q)` of a dense layer is
  `∑ k, h (r, k) · W (k, q) + b q` and reads row `r` of `h` only, so the blocks' results are the blocks of the whole
  array's result, and the five blocks tile it. No law of arithmetic beyond that is used — both sides are the same sums of
  the same products in the same order of operations — so the finiteness of the inputs is never needed.

  Modules: `LibDenseLayer` (a layer's entry, for the device's block and the host's array), `Propagate` (the step),
  `Network` (the function above), `LayerBlocks` (each launch's output array), `KernelRun` and `KernelValue` (the kernel
  program's run, its result the network), `RefValue` (the reference's result the network). The three frames are the
  generated ones; nothing was rewritten by the ideal pass, so the idealization claim is trivial.
-/
import proofs.«140563_j17514876633977_2_alg».proof.Defs
import proofs.«140563_j17514876633977_2_alg».proof.Proof.Gen.Kernel
import proofs.«140563_j17514876633977_2_alg».proof.Proof.Gen.Kernel.Frame
import proofs.«140563_j17514876633977_2_alg».proof.Proof.Gen.KernelIdeal
import proofs.«140563_j17514876633977_2_alg».proof.Proof.Gen.KernelIdeal.Frame
import proofs.«140563_j17514876633977_2_alg».proof.Proof.Gen.ReferenceIdeal
import proofs.«140563_j17514876633977_2_alg».proof.Proof.Gen.Pre_finite_inputs
import proofs.«140563_j17514876633977_2_alg».proof.Proof.Gen.ReferenceIdeal.Run
import proofs.«140563_j17514876633977_2_alg».proof.Proof.Gen.ReferenceIdeal.Read
import proofs.«140563_j17514876633977_2_alg».proof.Proof.KernelValue
import proofs.«140563_j17514876633977_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the network of those arguments in their
    result arrays: the kernel by its run through the two launches, the reference by its run read stage by stage. -/
theorem algebraic : Cert.algebraic_KernelIdeal_ReferenceIdeal := by
  intro m ρ m' ρ' _ hagree
  refine ⟨fun c => Cert.KernelIdeal.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v68_eq, Cert.ReferenceIdeal.RefValue.result_is_net, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
